-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x4096 : Shape := ⟨3, ![4, 16384, 4096]⟩
abbrev S16384x4096 : Shape := ⟨2, ![16384, 4096]⟩
abbrev S4096 : Shape := ⟨1, ![4096]⟩
abbrev S_ : Shape := ⟨0, ![]⟩

class Facts : Prop where
  bcast_S_S4x16384x4096 : S_.BroadcastsInDim S4x16384x4096 (![] : Fin 0 → Fin S4x16384x4096.rank)
  reducesTo_S4x16384x4096_S_d0_1_2 : S4x16384x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x16384x4096 .f32) (main_arg1 : FVec F S16384x4096 .f32) (main_arg2 : FVec F S4096 .f32) : IVec S_ 1 :=
  let main_v0 : FVec F S4x16384x4096 .f32 := Host.absf main_arg0
  let main_cst : FVec F S_ .f32 := constant S_ .f32 0x7F800000#32
  let main_v1 : FVec F S4x16384x4096 .f32 := broadcastInDim S4x16384x4096 ![] bcast_S_S4x16384x4096 main_cst
  let main_v2 : IVec S4x16384x4096 1 := cmpf .olt main_v0 main_v1
  let main_c : IVec S_ 1 := constantI S_ 1 1#1
  let main_v3 : IVec S_ 1 := (fun x v => Host.reduce IntOp.andi x v reducesTo_S4x16384x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x16384x4096 : Shape := ⟨3, ![4, 16384, 4096]⟩
abbrev S16384x4096 : Shape := ⟨2, ![16384, 4096]⟩
abbrev S4096 : Shape := ⟨1, ![4096]⟩
abbrev S4x128x4096 : Shape := ⟨3, ![4, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4x16384x4096, .f32⟩
  | .hbm, ⟨1, _⟩ => ⟨S16384x4096, .f32⟩
  | .hbm, ⟨2, _⟩ => ⟨S4096, .f32⟩
  | .hbm, ⟨3, _⟩ => ⟨S16384x4096, .f32⟩
  | .local _ .vmem, ⟨0, _⟩ => ⟨S4x128x4096, .f32⟩
  | .local _ .vmem, ⟨1, _⟩ => ⟨S4x128x4096, .f32⟩
  | .local _ .vmem, ⟨2, _⟩ => ⟨S4096, .f32⟩
  | .local _ .vmem, ⟨3, _⟩ => ⟨S128x4096, .f32⟩
  | .local _ .vmem, ⟨4, _⟩ => ⟨S128x4096, .f32⟩
  | _, _ => ⟨S4x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  inb_S4x128x4096_S1x128x4096_1_0_0 : ∀ a, (![1, 0, 0] : Fin 3 → Nat) a + S1x128x4096.size a ≤ S4x128x4096.size a
  inb_S4x128x4096_S1x128x4096_2_0_0 : ∀ a, (![2, 0, 0] : Fin 3 → Nat) a + S1x128x4096.size a ≤ S4x128x4096.size a
  inb_S4x128x4096_S1x128x4096_3_0_0 : ∀ a, (![3, 0, 0] : Fin 3 → Nat) a + S1x128x4096.size a ≤ S4x128x4096.size a
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x16384x4096.size a
  hwx0_0 : ∀ i : grid0.Coords, EltTy.bits .f32 = 32 ∨ (Rect.block (s := S4x16384x4096) S4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16384x4096 : Shape := ⟨3, ![4, 16384, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x16384x4096, .f32⟩
  | .hbm, ⟨1, _⟩ => ⟨S16384x4096, .f32⟩
  | .hbm, ⟨2, _⟩ => ⟨S4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | _, _ => ⟨S4x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S4x16384x4096_S16384x4096_d0 : S4x16384x4096.ReducesTo [0] S16384x4096
  h_S_ : 0 < S_.numel
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.Spec.lean ====
/-
  The function both programs compute, as mathematics.

  For one token the four replicas' partial hidden vectors are summed entry by entry (the all-reduce), the
  summed vector `v` is scaled by `(mean(v²) + ε)^(-1/2)` (RMS normalisation: the mean is the sum of the 4096
  squares divided by 4096) and multiplied entry by entry with the weight vector:

      out[r, k] = v[r, k] · rsqrt( (Σ_j v[r, j]²) / 4096 + ε ) · w[k],     v[r, k] = Σ_{p < 4} hs[p, r, k].

  Everything is read on the extended reals; `4096` and `ε` are kept as the two float words both programs
  print, so neither is ever evaluated.  A token's output depends on that token's row of `hs` only, which is why
  the function is stated row by row (`rowOut`) and the array-level function `G` just picks the row.
-/
import Idealize.ShloMosaic.PureOps.Ideal
import Idealize.ShloMosaic.PureOps.Ideal.Laws
import Idealize.ShloMosaic.Lib.ValueIdx

noncomputable section

open scoped BigOperators

namespace Cert.RmsNorm

open Idealize.ShloMosaic Idealize.ShloMosaic.ValueIdx

/-- One token's all-reduced hidden vector: entry `k` is the sum over the four replicas. -/
def rowRed (row : Fin 4 → Fin 4096 → EReal) (k : Fin 4096) : EReal := ∑ p : Fin 4, row p k

/-- The sum over four replicas, bracketed pairwise: `(a₀ + a₁) + (a₂ + a₃)`. Addition of extended reals is
    associative, so this is the same sum. -/
theorem rowRed_pairs (row : Fin 4 → Fin 4096 → EReal) (k : Fin 4096) :
    rowRed row k = (row 0 k + row 1 k) + (row 2 k + row 3 k) := by
  unfold rowRed
  rw [Fin.sum_univ_four, add_assoc]

/-- The sum of the squares of one token's all-reduced vector. -/
def rowSumSq (row : Fin 4 → Fin 4096 → EReal) : EReal := ∑ j : Fin 4096, rowRed row j * rowRed row j

/-- The token's scale: `rsqrt(mean of squares + ε)`, the mean being the sum divided by the float `4096.0`. -/
def rowScale (row : Fin 4 → Fin 4096 → EReal) : EReal :=
  Ideal.rsqrt (Ideal.div (rowSumSq row) (Ideal.ofBits .f32 0x45800000#32) + Ideal.ofBits .f32 0x358637BD#32)

/-- One token's output at hidden position `k`: the all-reduced entry, scaled, times the weight. -/
def rowOut (row : Fin 4 → Fin 4096 → EReal) (w : Fin 4096 → EReal) (k : Fin 4096) : EReal :=
  rowRed row k * rowScale row * w k

/-- The whole output array `[16384, 4096]` as one function of `hs : [4, 16384, 4096]` and `w : [4096]`:
    entry `(r, k)` is token `r`'s output at `k`. -/
def G (hs : FVec Ideal ⟨3, ![4, 16384, 4096]⟩ .f32) (w : FVec Ideal ⟨1, ![4096]⟩ .f32) :
    FVec Ideal ⟨2, ![16384, 4096]⟩ .f32 :=
  fun i => rowOut (fun p k => hs (ix3 p (i 0) k)) (fun k => w (ix1 k)) (i 1)

end Cert.RmsNorm

end
-- ==== Proof.RefValue.lean ====
/-
  The reference's result, read index by index, is the function `G` of the specification.

  The reference sums the replicas with a host reduction from the initial value `0` (so entry `(r, k)` of the
  all-reduced array is `0 + Σ_p hs[p, r, k]`), squares it, sums each row from `0` again, divides by `4096.0`, adds
  `ε`, takes the reciprocal square root, and multiplies the all-reduced array by that column (broadcast along the
  row) and by the weights (broadcast along the tokens). Reading each operation at an index gives exactly
  `rowOut` of the token's row; the two initial zeros vanish by `0 + x = x`.
-/
import proofs.«159821_j12592844112268_2_alg».proof.Proof.Gen.ReferenceIdeal.Read
import proofs.«159821_j12592844112268_2_alg».proof.Proof.Spec

noncomputable section

open scoped BigOperators

namespace Cert.ReferenceIdeal.RefValue

open Cert.ReferenceIdeal Cert.ReferenceIdeal.Read Idealize.ShloMosaic Idealize.ShloMosaic.ValueIdx Cert.RmsNorm

/-- The all-reduced array at `(r, k)`: the host sum over the replica axis, started from zero, is the plain sum
    over the four replicas. -/
theorem allreduce_apply (x0 : FVec Ideal S4x16384x4096 .f32) (r : Fin 16384) (k : Fin 4096) :
    val_main_v0 (F := Ideal) x0 (ix2 r k) = rowRed (fun p j => x0 (ix3 p r j)) k := by
  rw [val_main_v0_apply, val_main_cst_apply, Ideal.ofBits_def, Ideal.ofBits_zero_f32, zero_add]
  unfold rowRed
  refine Finset.sum_congr rfl fun p _ => congrArg x0 ?_
  funext a
  match a with
  | ⟨0, _⟩ => rfl
  | ⟨1, _⟩ => rfl
  | ⟨2, _⟩ => rfl

/-- The row sum of squares the reference divides by 4096: the sum over the row of the squared all-reduced entries. -/
theorem sumsq_apply (x0 : FVec Ideal S4x16384x4096 .f32) (r : Fin 16384) (k : Fin 4096) :
    ∑ j : Fin 4096, val_main_v1 (F := Ideal) x0 (idx_main_v2 (idx_main_v3 (idx_main_v9 (ix2 r k))) j)
      = rowSumSq (fun p j => x0 (ix3 p r j)) := by
  unfold rowSumSq
  refine Finset.sum_congr rfl fun j _ => ?_
  have e : idx_main_v2 (idx_main_v3 (idx_main_v9 (ix2 r k))) j = ix2 r j := by
    funext a
    match a with
    | ⟨0, _⟩ => rfl
    | ⟨1, _⟩ => rfl
  rw [e, val_main_v1_apply, allreduce_apply]
  rfl

/-- The reference's result array is `G` of its first and third arguments. -/
theorem result_eq (x0 : FVec Ideal S4x16384x4096 .f32) (x2 : FVec Ideal S4096 .f32) :
    val_main_v13 (F := Ideal) x0 x2 = G x0 x2 := by
  funext i
  obtain ⟨r, k, rfl⟩ : ∃ (r : Fin 16384) (k : Fin 4096), i = ix2 r k := ⟨i 0, i 1, eq_ix2 i⟩
  rw [val_main_v13_apply, val_main_v10_apply, val_main_v12_apply, val_main_v11_apply, val_main_v9_apply,
    val_main_v8_apply, val_main_v7_apply, val_main_v5_apply, val_main_v6_apply, val_main_v4_apply,
    val_main_v3_apply, val_main_v2_apply, val_main_cst_0_apply, val_main_cst_1_apply, val_main_cst_2_apply,
    allreduce_apply, sumsq_apply]
  have e : idx_main_v11 (idx_main_v12 (ix2 r k)) = ix1 k := by
    funext a
    match a with
    | ⟨0, _⟩ => rfl
  simp only [Ideal.ofBits_def, Ideal.ofBits_zero_f32, zero_add, Ideal.mulf_def, Ideal.addf_def, Ideal.hostDivf_def,
    Ideal.hostUnary_rsqrt_def, e]
  rfl

end Cert.ReferenceIdeal.RefValue

end
-- ==== Proof.BlockValue.lean ====
/-
  What the kernel body leaves in one output block, index by index.

  At a grid point the body holds a `[4, 128, 4096]` block `x0` of the hidden states (all four replicas of 128
  tokens) and the whole weight vector `x1`. It loads the four replica slabs `x0[p]`, adds them pairwise,
  `(x0[0] + x0[1]) + (x0[2] + x0[3])`, sums the squares along each row, divides by 4096, adds ε, takes the
  reciprocal square root and multiplies back, then multiplies by the weights. So row `a` of the block it stores
  is `rowOut` of row `a` of the input block: the pairwise bracketing is the four-term sum by associativity.
-/
import proofs.«159821_j12592844112268_2_alg».proof.Proof.Gen.KernelIdeal.Value
import proofs.«159821_j12592844112268_2_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.RmsNorm

/-- The load through the unit-stride rectangle at offset `(p, 0, 0)` of extent `[1, 128, 4096]`, read at `(0, a, k)`,
    is the block at `(p, a, k)`: a rectangle's element sits at offset + coordinate. -/
theorem ld_slab (x0 : Vec Ideal S4x128x4096 .f32) (off : Fin 3 → Nat)
    (inb : ∀ a, off a + S1x128x4096.size a ≤ S4x128x4096.size a) (p : Fin 4)
    (h0 : off 0 = p.val) (h1 : off 1 = 0) (h2 : off 2 = 0) (a : Fin 128) (k : Fin 4096) :
    View.ld x0 (Rect.unit (s := S4x128x4096) off S1x128x4096.size inb) (ix3 (0 : Fin 1) a k) = x0 (ix3 p a k) := by
  show x0 ((Rect.unit (s := S4x128x4096) off S1x128x4096.size inb).idx (ix3 (0 : Fin 1) a k)) = x0 (ix3 p a k)
  refine congrArg x0 (funext fun d => Fin.ext ?_)
  match d with
  | ⟨0, _⟩ => show off 0 + 1 * 0 = p.val; omega
  | ⟨1, _⟩ => show off 1 + 1 * a.val = a.val; omega
  | ⟨2, _⟩ => show off 2 + 1 * k.val = k.val; omega

/-- Replica slab `p` of the block — the load through the unit-stride rectangle at offset `(p, 0, 0)` of extent
    `[1, 128, 4096]` — viewed as `[128, 4096]`, read at `(a, k)`, is the block at `(p, a, k)`. -/
theorem slab_apply (x0 : Vec Ideal S4x128x4096 .f32) (off : Fin 3 → Nat)
    (inb : ∀ a, off a + S1x128x4096.size a ≤ S4x128x4096.size a) (p : Fin 4)
    (h0 : off 0 = p.val) (h1 : off 1 = 0) (h2 : off 2 = 0) (a : Fin 128) (k : Fin 4096) :
    shapeCast S128x4096 (View.ld x0 (Rect.unit (s := S4x128x4096) off S1x128x4096.size inb))
      shapeCasts_S1x128x4096_S128x4096 (ix2 a k) = x0 (ix3 p a k) := by
  exact (shapeCast_1ab_ab_apply (View.ld x0 (Rect.unit (s := S4x128x4096) off S1x128x4096.size inb))
    shapeCasts_S1x128x4096_S128x4096 a k).trans (ld_slab x0 off inb p h0 h1 h2 a k)

/-- The body's all-reduced block: the four replica slabs, each viewed `[128, 4096]`, added pairwise. -/
abbrev slabSum (x0 : Vec Ideal S4x128x4096 .f32) : FVec Ideal S128x4096 .f32 :=
  addf (F := Ideal) (φ := .f32)
    (addf (F := Ideal) (φ := .f32) (shapeCast S128x4096 (View.ld x0 r0_0) shapeCasts_S1x128x4096_S128x4096)
      (shapeCast S128x4096 (View.ld x0 r0_1) shapeCasts_S1x128x4096_S128x4096))
    (addf (F := Ideal) (φ := .f32) (shapeCast S128x4096 (View.ld x0 r0_2) shapeCasts_S1x128x4096_S128x4096)
      (shapeCast S128x4096 (View.ld x0 r0_3) shapeCasts_S1x128x4096_S128x4096))

/-- The body's row sums of squares: the lane reduction, from zero, of the squared all-reduced block. -/
abbrev slabSumSq (x0 : Vec Ideal S4x128x4096 .f32) : FVec Ideal S128 .f32 :=
  multiReduction (F := Ideal) .add [1] S128 (mulf (F := Ideal) (φ := .f32) (slabSum x0) (slabSum x0)) 0x00000000#32
    reduces_S128x4096_S128 (.inl rfl) rfl

/-- The body's pairwise sum of the four slabs, at `(a, k)`, is the all-reduced entry of row `a` of the block. -/
theorem allreduce_apply (x0 : Vec Ideal S4x128x4096 .f32) (a : Fin 128) (k : Fin 4096) :
    slabSum x0 (ix2 a k) = rowRed (fun p j => x0 (ix3 p a j)) k := by
  rw [rowRed_pairs]
  show (shapeCast S128x4096 (View.ld x0 r0_0) shapeCasts_S1x128x4096_S128x4096 (ix2 a k)
        + shapeCast S128x4096 (View.ld x0 r0_1) shapeCasts_S1x128x4096_S128x4096 (ix2 a k))
      + (shapeCast S128x4096 (View.ld x0 r0_2) shapeCasts_S1x128x4096_S128x4096 (ix2 a k)
        + shapeCast S128x4096 (View.ld x0 r0_3) shapeCasts_S1x128x4096_S128x4096 (ix2 a k)) = _
  rw [slab_apply x0 ![0, 0, 0] inb_S4x128x4096_S1x128x4096_0_0_0 0 rfl rfl rfl a k,
    slab_apply x0 ![1, 0, 0] inb_S4x128x4096_S1x128x4096_1_0_0 1 rfl rfl rfl a k,
    slab_apply x0 ![2, 0, 0] inb_S4x128x4096_S1x128x4096_2_0_0 2 rfl rfl rfl a k,
    slab_apply x0 ![3, 0, 0] inb_S4x128x4096_S1x128x4096_3_0_0 3 rfl rfl rfl a k]

/-- The lane reduction over the hidden axis, at row `a`, is the sum over the row of the squared all-reduced
    entries: at the ideal values a one-axis add-reduction is the plain sum over that axis. -/
theorem sumsq_apply (x0 : Vec Ideal S4x128x4096 .f32) (a : Fin 128) :
    slabSumSq x0 (ix1 a) = rowSumSq (fun p j => x0 (ix3 p a j)) := by
  refine (Ideal.multiReduction_add_single (mulf (F := Ideal) (φ := .f32) (slabSum x0) (slabSum x0)) 0x00000000#32
    reduces_S128x4096_S128 (.inl rfl) rfl (ix1 a)).trans ?_
  unfold rowSumSq
  refine Finset.sum_congr rfl fun (j : Fin 4096) _ => ?_
  have e : reduces_S128x4096_S128.lift (ix1 a) j = ix2 a j := by
    funext d
    match d with
    | ⟨0, _⟩ => rfl
    | ⟨1, _⟩ => rfl
  rw [e]
  show slabSum x0 (ix2 a j) * slabSum x0 (ix2 a j) = _
  rw [allreduce_apply]

/-- THE BLOCK the body stores, read at `(a, k)`: token `a` of the block, normalised and weighted. -/
theorem block_apply (x0 : Vec Ideal S4x128x4096 .f32) (x1 : Vec Ideal S4096 .f32) (a : Fin 128) (k : Fin 4096) :
    Value.E2 (F := Ideal) (View.ld x0 r0_0) (View.ld x0 r0_1) (View.ld x0 r0_2) (View.ld x0 r0_3) (View.ld x1 r0_4) (ix2 a k)
      = rowOut (fun p j => x0 (ix3 p a j)) (fun j => x1 (ix1 j)) k := by
  have i0 : Value.ix2_0 (ix2 a k) = ix3 (0 : Fin 1) a k := by
    funext d; match d with | ⟨0, _⟩ => rfl | ⟨1, _⟩ => rfl | ⟨2, _⟩ => rfl
  have i1 : Value.ix2_1 (ix2 a k) = ix3 (0 : Fin 1) a k := by
    funext d; match d with | ⟨0, _⟩ => rfl | ⟨1, _⟩ => rfl | ⟨2, _⟩ => rfl
  have i2 : Value.ix2_2 (ix2 a k) = ix3 (0 : Fin 1) a k := by
    funext d; match d with | ⟨0, _⟩ => rfl | ⟨1, _⟩ => rfl | ⟨2, _⟩ => rfl
  have i3 : Value.ix2_3 (ix2 a k) = ix3 (0 : Fin 1) a k := by
    funext d; match d with | ⟨0, _⟩ => rfl | ⟨1, _⟩ => rfl | ⟨2, _⟩ => rfl
  have i4 : Value.ix2_4 (ix2 a k) = ix1 a := by
    funext d; match d with | ⟨0, _⟩ => rfl
  have i5 : Value.ix2_5 (ix2 a k) = ix1 k := by
    funext d; match d with | ⟨0, _⟩ => rfl
  have hw : View.ld x1 r0_4 (ix1 k) = x1 (ix1 k) := by
    show x1 (r0_4.idx (ix1 k)) = x1 (ix1 k)
    refine congrArg x1 (funext fun d => Fin.ext ?_)
    match d with
    | ⟨0, _⟩ => show 0 + 1 * k.val = k.val; omega
  unfold rowOut rowScale
  rw [rowRed_pairs]
  show ((View.ld x0 r0_0 (Value.ix2_0 (ix2 a k)) + View.ld x0 r0_1 (Value.ix2_1 (ix2 a k)))
        + (View.ld x0 r0_2 (Value.ix2_2 (ix2 a k)) + View.ld x0 r0_3 (Value.ix2_3 (ix2 a k))))
      * Ideal.rsqrt (Ideal.div (slabSumSq x0 (Value.ix2_4 (ix2 a k))) (Ideal.ofBits .f32 0x45800000#32)
          + Ideal.ofBits .f32 0x358637BD#32)
      * View.ld x1 r0_4 (Value.ix2_5 (ix2 a k)) = _
  rw [i0, i1, i2, i3, i4, i5, hw, sumsq_apply,
    ld_slab x0 ![0, 0, 0] inb_S4x128x4096_S1x128x4096_0_0_0 0 rfl rfl rfl a k,
    ld_slab x0 ![1, 0, 0] inb_S4x128x4096_S1x128x4096_1_0_0 1 rfl rfl rfl a k,
    ld_slab x0 ![2, 0, 0] inb_S4x128x4096_S1x128x4096_2_0_0 2 rfl rfl rfl a k,
    ld_slab x0 ![3, 0, 0] inb_S4x128x4096_S1x128x4096_3_0_0 3 rfl rfl rfl a k]

/-- What the body leaves in the output's staging buffer, from the two input blocks, at `(a, k)`: its one store
    covers the buffer, so the buffer holds the stored block. -/
theorem out_apply (x0 : Vec Ideal S4x128x4096 .f32) (x1 : Vec Ideal S4096 .f32) (a : Fin 128) (k : Fin 4096) :
    out0_2 (F := Ideal) x0 x1 (ix2 a k) = rowOut (fun p j => x0 (ix3 p a j)) (fun j => x1 (ix1 j)) k := by
  unfold out0_2
  exact (Value.canon2_eq (F := Ideal) (View.ld x0 r0_0) (View.ld x0 r0_1) (View.ld x0 r0_2) (View.ld x0 r0_3)
    (View.ld x1 r0_4) (ix2 a k)).trans (block_apply x0 x1 a k)

end Cert.KernelIdeal.BlockValue

end
-- ==== Proof.ArrayValue.lean ====
/-
  From blocks to the array: after the run the kernel's output array is `G` of the argument arrays.

  The grid has 128 points. At point `t` the hidden-states window holds tokens `128·t … 128·t + 127` of all four
  replicas (block index `(0, t, 0)` of blocks `[4, 128, 4096]`), the weight window holds the whole weight vector, and
  the output window's block is tokens `128·t … 128·t + 127` (block index `(t, 0)` of blocks `[128, 4096]`). A token's
  output depends on that token's row only, so what point `t` writes back is block `t` of `G`; every token `r` lies in
  the block of point `r / 128`, so the blocks cover the array and the array ends holding `G`.
-/
import proofs.«159821_j12592844112268_2_alg».proof.Proof.BlockValue
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.RmsNorm
open Idealize.ShloMosaic.Pipeline (Dat)

variable (m : (ℓ : Loc nD τ sig) → Buf (Elt Ideal) ℓ) (ρ : Dev nD → PrngReg)

/-- The printed index maps, decided over the 128 grid points: the hidden-states window's block index is `(0, t, 0)`,
    the weight window's `(0)`, the output window's `(t, 0)`. -/
theorem index_facts : ∀ t : Fin cfg0.N,
    win0_0.index t (0 : Fin 3) = 0 ∧ win0_0.index t (1 : Fin 3) = t.val ∧ win0_0.index t (2 : Fin 3) = 0
    ∧ win0_1.index t (0 : Fin 1) = 0
    ∧ win0_2.index t (0 : Fin 2) = t.val ∧ win0_2.index t (1 : Fin 2) = 0 :=
  (by decide +kernel : ∀ t : Fin grid0.N, _)

/-- Token `a` of point `t`'s block is token `128·t + a` of the array. -/
def tok (t : Fin cfg0.N) (a : Fin 128) : Fin 16384 :=
  ⟨t.val * 128 + a.val, by have h : t.val < 128 := N_0 ▸ t.isLt; omega⟩

/-- Where the output block's element `(a, k)` sits in the output array: at token `128·t + a`, position `k`. -/
theorem out_emb (t : Fin cfg0.N) (a : Fin 128) (k : Fin 4096) :
    ((cfg0.win 2).blk t).view.emb (ix2 a k) = ix2 (tok t a) k := by
  obtain ⟨-, -, -, -, e0, e1⟩ := index_facts t
  funext d
  apply Fin.ext
  match d with
  | ⟨0, _⟩ => show win0_2.index t (0 : Fin 2) * 128 + 1 * a.val = t.val * 128 + a.val; omega
  | ⟨1, _⟩ => show win0_2.index t (1 : Fin 2) * 4096 + 1 * k.val = k.val; omega

/-- The hidden-states block at point `t`, read at `(p, a, j)`, is the argument at replica `p`, token `128·t + a`,
    position `j`. -/
theorem hs_block (c : Dev nD) (t : Fin cfg0.N) (p : Fin 4) (a : Fin 128) (j : Fin 4096) :
    iblk m c 0 t (ix3 p a j) = V m c main_arg0 (ix3 p (tok t a) j) := by
  obtain ⟨e0, e1, e2, -, -, -⟩ := index_facts t
  show V m c main_arg0 (((cfg0.win 0).blk t).view.emb (ix3 p a j)) = V m c main_arg0 (ix3 p (tok t a) j)
  refine congrArg (V m c main_arg0) (funext fun d => Fin.ext ?_)
  match d with
  | ⟨0, _⟩ => show win0_0.index t (0 : Fin 3) * 4 + 1 * p.val = p.val; omega
  | ⟨1, _⟩ => show win0_0.index t (1 : Fin 3) * 128 + 1 * a.val = t.val * 128 + a.val; omega
  | ⟨2, _⟩ => show win0_0.index t (2 : Fin 3) * 4096 + 1 * j.val = j.val; omega

/-- The weight block at any point is the whole weight vector. -/
theorem w_block (c : Dev nD) (t : Fin cfg0.N) (j : Fin 4096) :
    iblk m c 1 t (ix1 j) = V m c main_arg2 (ix1 j) := by
  obtain ⟨-, -, -, e0, -, -⟩ := index_facts t
  show V m c main_arg2 (((cfg0.win 1).blk t).view.emb (ix1 j)) = V m c main_arg2 (ix1 j)
  refine congrArg (V m c main_arg2) (funext fun d => Fin.ext ?_)
  match d with
  | ⟨0, _⟩ => show win0_1.index t (0 : Fin 1) * 4096 + 1 * j.val = j.val; omega

/-- WHAT POINT `t` WRITES BACK is block `t` of `G` of the argument arrays. -/
theorem flushed_eq (c : Dev nD) (t : Fin cfg0.N) :
    (dats m 0 c).flushed 2 t
      = ((cfg0.win 2).blk t).view.read (Elt Ideal) (G (V m c main_arg0) (V m c main_arg2)) := by
  rw [Value.flushed2]
  refine funext fun (y : S128x4096.Idx) => ?_
  obtain ⟨a, k, rfl⟩ : ∃ (a : Fin 128) (k : Fin 4096), y = ix2 a k := ⟨y 0, y 1, eq_ix2 y⟩
  show out0_2 (iblk m c 0 t) (iblk m c 1 t) (ix2 a k)
      = G (V m c main_arg0) (V m c main_arg2) (((cfg0.win 2).blk t).view.emb (ix2 a k))
  rw [out_emb]
  refine (BlockValue.out_apply (iblk m c 0 t) (iblk m c 1 t) a k).trans ?_
  show rowOut (fun p j => iblk m c 0 t (ix3 p a j)) (fun j => iblk m c 1 t (ix1 j)) k
      = rowOut (fun p j => V m c main_arg0 (ix3 p (tok t a) j)) (fun j => V m c main_arg2 (ix1 j)) k
  simp only [hs_block, w_block]

/-- An index of the output array is in point `t`'s block iff each coordinate is in the block's range on its axis. -/
theorem mem_blk (t : Fin cfg0.N) (i : S16384x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v0).slice (win0_2.rect t)).set ↔ _
  rw [View.set_slice_whole, Rect.mem_set_unit]
  exact Iff.rfl

/-- Every index of the output array is in the block of the point its token belongs to, `token / 128`. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  let t : Fin cfg0.N := ⟨(i 0).val / 128, by rw [hN]; omega⟩
  have ht : t.val = (i 0).val / 128 := rfl
  obtain ⟨-, -, -, -, e0, e1⟩ := index_facts t
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 4096 ≤ (i 1).val ∧ (i 1).val < win0_2.index t (1 : Fin 2) * 4096 + 4096
    omega

/-- THE ARRAY after the run is `G` of the hidden states and the weights as launched. -/
theorem final (c : Dev nD) :
    (dats m 0 c).arrAt 2 cfg0.N
      = G (m ((c : Thread nD τ).loc main_arg0)) (m ((c : Thread nD τ).loc main_arg2)) :=
  (dats m 0 c).arrAt_eq_of_cover 2 (G (V m c main_arg0) (V m c main_arg2)) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  The fused all-reduce + RMS normalisation + weight scale kernel against its jnp reference, on the extended reals.

  Both programs compute, for token `r` and hidden position `k`,

      out[r, k] = v[r, k] · rsqrt( (Σ_j v[r, j]²) / 4096 + ε ) · w[k],     v[r, k] = Σ_{p < 4} hs[p, r, k]

  (`Cert.RmsNorm.G`, Proof/Spec.lean), with the same two float words for `4096` and `ε`. The kernel adds the four
  replicas pairwise, `(hs₀ + hs₁) + (hs₂ + hs₃)`, and sums the squares with a lane reduction; the reference sums
  replicas and squares with host reductions started from `0`. The only law between the two is that addition of
  extended reals is associative with neutral element `0`, which holds at the infinities too, so the inputs'
  finiteness is never used. The second argument (`residual`) is read by neither program.

  - Proof/Spec.lean: the function `G`, row by row.
  - Proof/RefValue.lean: the reference's result is `G` (over its generated run and read-at-an-index lemmas).
  - Proof/BlockValue.lean: the block the kernel body stores at a grid point is `G`'s rows of the input block.
  - Proof/ArrayValue.lean: point `t` writes tokens `128·t … 128·t + 127`, the 128 blocks cover the array, so the
    kernel's result array is `G` (over the generated frame run and its blockwise value leg).
  The three frames are the generated ones (the reference's is its generated run with the result dropped); the
  ideal pass rewrote nothing, so `preserves` is `True`.
-/
import proofs.«159821_j12592844112268_2_alg».proof.Defs
import proofs.«159821_j12592844112268_2_alg».proof.Proof.Gen.Kernel
import proofs.«159821_j12592844112268_2_alg».proof.Proof.Gen.Kernel.Skeleton
import proofs.«159821_j12592844112268_2_alg».proof.Proof.Gen.Kernel.Launch
import proofs.«159821_j12592844112268_2_alg».proof.Proof.Gen.Kernel.Points
import proofs.«159821_j12592844112268_2_alg».proof.Proof.Gen.Kernel.Frame
import proofs.«159821_j12592844112268_2_alg».proof.Proof.Gen.KernelIdeal
import proofs.«159821_j12592844112268_2_alg».proof.Proof.Gen.KernelIdeal.Skeleton
import proofs.«159821_j12592844112268_2_alg».proof.Proof.Gen.KernelIdeal.Launch
import proofs.«159821_j12592844112268_2_alg».proof.Proof.Gen.KernelIdeal.Points
import proofs.«159821_j12592844112268_2_alg».proof.Proof.Gen.KernelIdeal.Frame
import proofs.«159821_j12592844112268_2_alg».proof.Proof.Gen.ReferenceIdeal
import proofs.«159821_j12592844112268_2_alg».proof.Proof.Gen.Pre_finite_inputs
import proofs.«159821_j12592844112268_2_alg».proof.Proof.Gen.KernelIdeal.Value
import proofs.«159821_j12592844112268_2_alg».proof.Proof.Gen.ReferenceIdeal.Run
import proofs.«159821_j12592844112268_2_alg».proof.Proof.Gen.ReferenceIdeal.Read
import proofs.«159821_j12592844112268_2_alg».proof.Proof.Spec
import proofs.«159821_j12592844112268_2_alg».proof.Proof.RefValue
import proofs.«159821_j12592844112268_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: nothing was rewritten. -/
theorem preserves : Cert.preserves_Kernel_KernelIdeal := trivial

/-- From memories agreeing on the arguments both programs end with the result array at `G` of the hidden states
    and the weights: the kernel by the blocks it writes (`ArrayValue.run`), the reference by its operations read
    at an index (`RefValue.result_eq`). -/
theorem algebraic : Cert.algebraic_KernelIdeal_ReferenceIdeal := by
  intro m ρ m' ρ' _ hagree
  refine ⟨fun c => Cert.RmsNorm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
